-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S128x128 : Shape := ⟨2, ![128, 128]⟩
abbrev S128 : Shape := ⟨1, ![128]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg14 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg11 : FVec F S128x128 .f32) (main_arg12 : FVec F S128 .f32) (main_arg13 : FVec F S128x128 .f32) (main_arg14 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_v63 main_v67

def fn_part2 {F : FTy → Type} [FloatOps F] (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_v48 main_v49 main_v50

def fn_part1 {F : FTy → Type} [FloatOps F] (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S200000x128 .f32) (main_arg1 : FVec F S200000x128 .f32) (main_arg2 : FVec F S200000x128 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S200000x128 .f32 := Host.absf main_arg1
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S200000x128 .f32 := Host.absf main_arg2
  let main_cst_2 : FVec F S_ .f32 := constant S_ .f32 0x7F800000#32
  let main_v10 : FVec F S200000x128 .f32 := broadcastInDim S200000x128 ![] bcast_S_S200000x128 main_cst_2
  let main_v11 : IVec S200000x128 1 := cmpf .olt main_v9 main_v10
  let main_c_3 : IVec S_ 1 := constantI S_ 1 1#1
  let main_v12 : IVec S_ 1 := (fun x v => Host.reduce IntOp.andi x v reducesTo_S200000x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S200000x128 : Shape := ⟨2, ![200000, 128]⟩
abbrev S128x128 : Shape := ⟨2, ![128, 128]⟩
abbrev S128 : Shape := ⟨1, ![128]⟩
abbrev S128x256 : Shape := ⟨2, ![128, 256]⟩
abbrev S256x256 : Shape := ⟨2, ![256, 256]⟩
abbrev S256 : Shape := ⟨1, ![256]⟩
abbrev S1x256 : Shape := ⟨2, ![1, 256]⟩
abbrev S1x128 : Shape := ⟨2, ![1, 128]⟩
abbrev S4000x128 : Shape := ⟨2, ![4000, 128]⟩
abbrev S4000x256 : Shape := ⟨2, ![4000, 256]⟩

abbrev nBuf : Space → Nat
  | .hbm => 34
  | .vmem => 14
  | .smem => 0
  | _ => 0

abbrev bufTy : (tb : Table) → Fin (tcTables nBuf tb) → BufTy
  | .hbm, ⟨0, _⟩ => ⟨S200000x128, .f32⟩
  | .hbm, ⟨1, _⟩ => ⟨S200000x128, .f32⟩
  | .hbm, ⟨2, _⟩ => ⟨S200000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128x128, .f32⟩
  | .hbm, ⟨17, _⟩ => ⟨S128x256, .f32⟩
  | .hbm, ⟨18, _⟩ => ⟨S128x128, .f32⟩
  | .hbm, ⟨19, _⟩ => ⟨S128x128, .f32⟩
  | .hbm, ⟨20, _⟩ => ⟨S128x256, .f32⟩
  | .hbm, ⟨21, _⟩ => ⟨S256x256, .f32⟩
  | .hbm, ⟨22, _⟩ => ⟨S256x256, .bf16⟩
  | .hbm, ⟨23, _⟩ => ⟨S128, .f32⟩
  | .hbm, ⟨24, _⟩ => ⟨S128, .f32⟩
  | .hbm, ⟨25, _⟩ => ⟨S256, .f32⟩
  | .hbm, ⟨26, _⟩ => ⟨S1x256, .f32⟩
  | .hbm, ⟨27, _⟩ => ⟨S128x128, .f32⟩
  | .hbm, ⟨28, _⟩ => ⟨S128x128, .bf16⟩
  | .hbm, ⟨29, _⟩ => ⟨S128x128, .f32⟩
  | .hbm, ⟨30, _⟩ => ⟨S128x128, .bf16⟩
  | .hbm, ⟨31, _⟩ => ⟨S1x128, .f32⟩
  | .hbm, ⟨32, _⟩ => ⟨S1x128, .f32⟩
  | .hbm, ⟨33, _⟩ => ⟨S200000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S256x256, .bf16⟩
  | .local _ .vmem, ⟨7, _⟩ => ⟨S1x256, .f32⟩
  | .local _ .vmem, ⟨8, _⟩ => ⟨S128x128, .bf16⟩
  | .local _ .vmem, ⟨9, _⟩ => ⟨S1x128, .f32⟩
  | .local _ .vmem, ⟨10, _⟩ => ⟨S128x128, .bf16⟩
  | .local _ .vmem, ⟨11, _⟩ => ⟨S1x128, .f32⟩
  | .local _ .vmem, ⟨12, _⟩ => ⟨S4000x128, .f32⟩
  | .local _ .vmem, ⟨13, _⟩ => ⟨S4000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S128x128_S128x128_1_0 : S128x128.Transposes [1, 0] S128x128
  concatenates_S128x128_S128x128_S128x256_d1 : Shape.Concatenates [S128x128, S128x128] S128x256 1
  concatenates_S128x256_S128x256_S256x256_d0 : Shape.Concatenates [S128x256, S128x256] S256x256 0
  bitsLt_bf16_f32 : FTy.bits .bf16 < FTy.bits .f32
  concatenates_S128_S128_S256_d0 : Shape.Concatenates [S128, S128] S256 0
  shapeCasts_S256_S1x256 : S256.ShapeCasts S1x256
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  concatenates_S4000x128_S4000x128_S4000x256_d1 : Shape.Concatenates [S4000x128, S4000x128] S4000x256 1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  slices_S4000x256_o0_0_S4000x128 : S4000x256.Slices ![0, 0] S4000x128
  slices_S4000x256_o0_128_S4000x128 : S4000x256.Slices ![0, 128] S4000x128
  dot_S4000x256_S256x256_S4000x256_1_0_0_1_n_n_wf : DotDims.WF S4000x256 S256x256 S4000x256 [1] [0] [0] [1] [] []
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S200000x128.size a
  hwx0_0 : ∀ i : grid0.Coords, EltTy.bits .f32 = 32 ∨ (Rect.block (s := S200000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S200000x128.size a
  hwx0_1 : ∀ i : grid0.Coords, EltTy.bits .f32 = 32 ∨ (Rect.block (s := S200000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S200000x128.size a
  hwx0_2 : ∀ i : grid0.Coords, EltTy.bits .f32 = 32 ∨ (Rect.block (s := S200000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S200000x128.size a
  hwx0_9 : ∀ i : grid0.Coords, EltTy.bits .f32 = 32 ∨ (Rect.block (s := S200000x128) S4000x128.size (cc0_transform_9 i) (hinb0_9 i)).WholeWords (EltTy.packing .f32)

variable [Facts₀]

def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S4000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S200000x128 : Shape := ⟨2, ![200000, 128]⟩
abbrev S128x128 : Shape := ⟨2, ![128, 128]⟩
abbrev S128 : Shape := ⟨1, ![128]⟩
abbrev S384x128 : Shape := ⟨2, ![384, 128]⟩
abbrev S384 : Shape := ⟨1, ![384]⟩
abbrev S128x384 : Shape := ⟨2, ![128, 384]⟩
abbrev S200000x384 : Shape := ⟨2, ![200000, 384]⟩
abbrev S1x384 : Shape := ⟨2, ![1, 384]⟩
abbrev S_ : Shape := ⟨0, ![]⟩

abbrev nBuf : Space → Nat
  | .hbm => 63
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S200000x128, .f32⟩
  | .hbm, ⟨2, _⟩ => ⟨S200000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S200000x128, .f32⟩
  | .hbm, ⟨16, _⟩ => ⟨S384x128, .f32⟩
  | .hbm, ⟨17, _⟩ => ⟨S384, .f32⟩
  | .hbm, ⟨18, _⟩ => ⟨S384x128, .f32⟩
  | .hbm, ⟨19, _⟩ => ⟨S384, .f32⟩
  | .hbm, ⟨20, _⟩ => ⟨S128x384, .f32⟩
  | .hbm, ⟨21, _⟩ => ⟨S200000x384, .f32⟩
  | .hbm, ⟨22, _⟩ => ⟨S1x384, .f32⟩
  | .hbm, ⟨23, _⟩ => ⟨S200000x384, .f32⟩
  | .hbm, ⟨24, _⟩ => ⟨S200000x384, .f32⟩
  | .hbm, ⟨25, _⟩ => ⟨S128x384, .f32⟩
  | .hbm, ⟨26, _⟩ => ⟨S200000x384, .f32⟩
  | .hbm, ⟨27, _⟩ => ⟨S1x384, .f32⟩
  | .hbm, ⟨28, _⟩ => ⟨S200000x384, .f32⟩
  | .hbm, ⟨29, _⟩ => ⟨S200000x384, .f32⟩
  | .hbm, ⟨30, _⟩ => ⟨S200000x128, .f32⟩
  | .hbm, ⟨31, _⟩ => ⟨S200000x128, .f32⟩
  | .hbm, ⟨32, _⟩ => ⟨S200000x128, .f32⟩
  | .hbm, ⟨33, _⟩ => ⟨S200000x128, .f32⟩
  | .hbm, ⟨34, _⟩ => ⟨S200000x128, .f32⟩
  | .hbm, ⟨35, _⟩ => ⟨S200000x128, .f32⟩
  | .hbm, ⟨36, _⟩ => ⟨S200000x128, .f32⟩
  | .hbm, ⟨37, _⟩ => ⟨S200000x128, .f32⟩
  | .hbm, ⟨38, _⟩ => ⟨S200000x128, .f32⟩
  | .hbm, ⟨39, _⟩ => ⟨S_, .f32⟩
  | .hbm, ⟨40, _⟩ => ⟨S200000x128, .f32⟩
  | .hbm, ⟨41, _⟩ => ⟨S200000x128, .f32⟩
  | .hbm, ⟨42, _⟩ => ⟨S_, .f32⟩
  | .hbm, ⟨43, _⟩ => ⟨S200000x128, .f32⟩
  | .hbm, ⟨44, _⟩ => ⟨S200000x128, .f32⟩
  | .hbm, ⟨45, _⟩ => ⟨S200000x128, .f32⟩
  | .hbm, ⟨46, _⟩ => ⟨S200000x128, .f32⟩
  | .hbm, ⟨47, _⟩ => ⟨S200000x128, .f32⟩
  | .hbm, ⟨48, _⟩ => ⟨S_, .f32⟩
  | .hbm, ⟨49, _⟩ => ⟨S200000x128, .f32⟩
  | .hbm, ⟨50, _⟩ => ⟨S200000x128, .f32⟩
  | .hbm, ⟨51, _⟩ => ⟨S_, .f32⟩
  | .hbm, ⟨52, _⟩ => ⟨S200000x128, .f32⟩
  | .hbm, ⟨53, _⟩ => ⟨S200000x128, .f32⟩
  | .hbm, ⟨54, _⟩ => ⟨S200000x128, .f32⟩
  | .hbm, ⟨55, _⟩ => ⟨S200000x128, .f32⟩
  | .hbm, ⟨56, _⟩ => ⟨S200000x128, .f32⟩
  | .hbm, ⟨57, _⟩ => ⟨S_, .f32⟩
  | .hbm, ⟨58, _⟩ => ⟨S200000x128, .f32⟩
  | .hbm, ⟨59, _⟩ => ⟨S200000x128, .f32⟩
  | .hbm, ⟨60, _⟩ => ⟨S200000x128, .f32⟩
  | .hbm, ⟨61, _⟩ => ⟨S200000x128, .f32⟩
  | .hbm, ⟨62, _⟩ => ⟨S200000x128, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst : Ref sig .tc := ⟨.hbm, 39, rfl⟩
abbrev main_v24 : Ref sig .tc := ⟨.hbm, 40, rfl⟩
abbrev main_v25 : Ref sig .tc := ⟨.hbm, 41, rfl⟩
abbrev main_cst_0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_1 : Ref sig .tc := ⟨.hbm, 48, rfl⟩
abbrev main_v31 : Ref sig .tc := ⟨.hbm, 49, rfl⟩
abbrev main_v32 : Ref sig .tc := ⟨.hbm, 50, rfl⟩
abbrev main_cst_2 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_3 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]

class Facts₀ : Prop where
  concatenates_S128x128_S128x128_S128x128_S384x128_d0 : Shape.Concatenates [S128x128, S128x128, S128x128] S384x128 0
  concatenates_S128_S128_S128_S384_d0 : Shape.Concatenates [S128, S128, S128] S384 0
  transposes_S384x128_S128x384_1_0 : S384x128.Transposes [1, 0] S128x384
  bcast_S384_S1x384_1 : S384.BroadcastsInDim S1x384 (![1] : Fin 1 → Fin S1x384.rank)
  bcast_S1x384_S200000x384_0_1 : S1x384.BroadcastsInDim S200000x384 (![0, 1] : Fin 2 → Fin S200000x384.rank)
  slices_S200000x384_S200000x128_0_0 : S200000x384.Slices ![0, 0] S200000x128
  slices_S200000x384_S200000x128_0_128 : S200000x384.Slices ![0, 128] S200000x128
  slices_S200000x384_S200000x128_0_256 : S200000x384.Slices ![0, 256] S200000x128
  bcast_S_S200000x128 : S_.BroadcastsInDim S200000x128 (![] : Fin 0 → Fin S200000x128.rank)
  dot_S200000x128_S128x384_S200000x384_1_0_0_1_n_n_wf : DotDims.WF S200000x128 S128x384 S200000x384 [1] [0] [0] [1] [] []

variable [Facts₀]

def dot_S200000x128_S128x384_S200000x384_1_0_0_1_n_n : DotDims S200000x128 S128x384 S200000x384 where
  lhsContracting := [1]
  rhsContracting := [0]
  lhsNonContracting := [0]
  rhsNonContracting := [1]
  lhsBatch := []
  rhsBatch := []
  wf := dot_S200000x128_S128x384_S200000x384_1_0_0_1_n_n_wf

class Facts : Prop extends Facts₀ where

variable [Facts]
-- ==== Proof.LibMatRead.lean ====
/-
  Two matrix products read at an index, over the extended reals, for any dimension record with the stated axes: the
  product that contracts the second axis of both operands (rows against rows), and the one that contracts the second
  axis of the left with the first of the right (rows against columns). Into a zero accumulator each is the plain sum
  over the shared axis of the products of the entries; the contraction's index type has one coordinate, and the sum is
  re-indexed by it.
-/
import Idealize.ShloMosaic.PureOps.Ideal.Laws
import Idealize.ShloMosaic.Lib.ValueIdx

noncomputable section
open scoped BigOperators
open Idealize.ShloMosaic Idealize.ShloMosaic.ValueIdx

namespace Cert.MatRead

/-- A product that contracts the second axis of both operands, into a zero accumulator, read at an index: the sum over
    the shared axis of row `a` of the left operand times row `b` of the right. -/
theorem matmul_rows_apply {m k n : Nat} {φ₁ φ₂ : FTy}
    (d : DotDims ⟨2, ![m, k]⟩ ⟨2, ![n, k]⟩ ⟨2, ![m, n]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision)
    (A : FVec Ideal ⟨2, ![m, k]⟩ φ₁) (B : FVec Ideal ⟨2, ![n, k]⟩ φ₂) (a : Fin m) (b : Fin n) :
    FloatOps.matmul d prec A B (constant ⟨2, ![m, n]⟩ .f32 0x00000000#32) (ix2 a b)
      = ∑ c : Fin k, A (ix2 a c) * B (ix2 b c) := by
  have hr1 : d.contr.rank = 1 := by rw [d.rank_contr, hlc]; rfl
  have hs : d.contr.size ⟨0, by omega⟩ = k := by
    have h := d.size_contr 0 (by rw [hlc]; exact Nat.one_pos)
    simp only [hlc] at h
    exact h
  have key0 : ∀ (i : Nat) (h : i < 2), i = 0 → ((ix2 a b ⟨i, h⟩).val : Nat) = a.val := by
    intro i h hi; subst hi; rfl
  have key1 : ∀ (i : Nat) (h : i < 2), i = 1 → ((ix2 a b ⟨i, h⟩).val : Nat) = b.val := by
    intro i h hi; subst hi; rfl
  rw [Ideal.matmul_constant_zero_apply, ← Equiv.sum_comp (contrEquiv1 d k hr1 hs).symm]
  refine Finset.sum_congr rfl fun c _ => ?_
  have c2 := contrEquiv1_symm_val d k hr1 hs c
  have l2 : d.lhsIdx (ix2 a b) ((contrEquiv1 d k hr1 hs).symm c) = ix2 a c := by
    funext ax; apply Fin.ext
    match ax with
    | ⟨0, _⟩ => simp [DotDims.lhsIdx, hlc, hln, hlb]; exact key0 _ _ (by simp [hlb, hln])
    | ⟨1, _⟩ => exact (d.lhsIdx_val_of_single hlc _ _).trans c2
  have r2 : d.rhsIdx (ix2 a b) ((contrEquiv1 d k hr1 hs).symm c) = ix2 b c := by
    funext ax; apply Fin.ext
    match ax with
    | ⟨0, _⟩ => simp [DotDims.rhsIdx, hrc, hrn, hrb]; exact key1 _ _ (by simp [hlb, hln, hrn])
    | ⟨1, _⟩ => exact (d.rhsIdx_val_of_single hrc _ _).trans c2
  rw [l2, r2]

/-- A product that contracts the second axis of the left operand with the first of the right, into a zero accumulator,
    read at an index: row `a` of the left operand times column `b` of the right. -/
theorem matmul_row_col_apply {m k n : Nat} {φ₁ φ₂ : FTy}
    (d : DotDims ⟨2, ![m, k]⟩ ⟨2, ![k, n]⟩ ⟨2, ![m, n]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (A : FVec Ideal ⟨2, ![m, k]⟩ φ₁) (B : FVec Ideal ⟨2, ![k, n]⟩ φ₂) (a : Fin m) (b : Fin n) :
    FloatOps.matmul d prec A B (constant ⟨2, ![m, n]⟩ .f32 0x00000000#32) (ix2 a b)
      = ∑ c : Fin k, A (ix2 a c) * B (ix2 c b) := by
  have hr1 : d.contr.rank = 1 := by rw [d.rank_contr, hlc]; rfl
  have hs : d.contr.size ⟨0, by omega⟩ = k := by
    have h := d.size_contr 0 (by rw [hlc]; exact Nat.one_pos)
    simp only [hlc] at h
    exact h
  have key0 : ∀ (i : Nat) (h : i < 2), i = 0 → ((ix2 a b ⟨i, h⟩).val : Nat) = a.val := by
    intro i h hi; subst hi; rfl
  have key1 : ∀ (i : Nat) (h : i < 2), i = 1 → ((ix2 a b ⟨i, h⟩).val : Nat) = b.val := by
    intro i h hi; subst hi; rfl
  rw [Ideal.matmul_constant_zero_apply, ← Equiv.sum_comp (contrEquiv1 d k hr1 hs).symm]
  refine Finset.sum_congr rfl fun c _ => ?_
  have c2 := contrEquiv1_symm_val d k hr1 hs c
  have l2 : d.lhsIdx (ix2 a b) ((contrEquiv1 d k hr1 hs).symm c) = ix2 a c := by
    funext ax; apply Fin.ext
    match ax with
    | ⟨0, _⟩ => simp [DotDims.lhsIdx, hlc, hln, hlb]; exact key0 _ _ (by simp [hlb, hln])
    | ⟨1, _⟩ => exact (d.lhsIdx_val_of_single hlc _ _).trans c2
  have r2 : d.rhsIdx (ix2 a b) ((contrEquiv1 d k hr1 hs).symm c) = ix2 c b := by
    funext ax; apply Fin.ext
    match ax with
    | ⟨0, _⟩ => exact (d.rhsIdx_val_of_single hrc _ _).trans c2
    | ⟨1, _⟩ => simp [DotDims.rhsIdx, hrc, hrn, hrb]; exact key1 _ _ (by simp [hlb, hln, hrn])
  rw [l2, r2]

end Cert.MatRead
-- ==== Proof.GruSpec.lean ====
/-
  The gated recurrent update of one entry of the hidden state, as functions on the extended reals, in the two
  arrangements the two programs use, and the laws that join them.

  For node `n` and feature `j`, with `xc = X_m[n,·] + X_cm[n,·]` the combined message row and `xh = X_h[n,·]` the hidden
  row, every gate's pre-activation is a row of `xc` against a row of a message-side weight plus a row of `xh` against a
  row of a hidden-side weight plus two biases. One program adds the two biases first and the two products first
  (`gateJoint`), the other adds each product to its own bias (`gatePair`): four summands regrouped, which holds in any
  commutative monoid, so also with infinite entries.

  With `r` the reset gate, `u` the update gate and `t = tanh (hm + r · hh)` the candidate, one program forms
  `h + u · (t - h)` (`cellStep`) and the other `(1 - u) · h + u · t` (`cellBlend`). The logistic function and `tanh` take
  every extended real to a real, so `u` and `t` are real whatever the pre-activations are; the two forms then agree
  whenever `h` is real, by distributivity in the reals. At `h = ⊤`, `u = 1/2`, `t = 0` they differ (`⊥` against `⊤`):
  finiteness of the hidden state is needed, and only there.
-/
import Idealize.ShloMosaic.PureOps.Ideal
import Idealize.ShloMosaic.Lib.ValueIdx

noncomputable section
open scoped BigOperators
open Idealize.ShloMosaic Idealize.ShloMosaic.ValueIdx

namespace Cert.Gru

/-- The node-by-feature arrays, the square weights and the bias vectors. -/
abbrev Rows : Shape := ⟨2, ![200000, 128]⟩
abbrev Mat : Shape := ⟨2, ![128, 128]⟩
abbrev Bias : Shape := ⟨1, ![128]⟩

/-- A row against a row of weights. -/
def dot (x w : Fin 128 → EReal) : EReal := ∑ k : Fin 128, x k * w k

/-- A gate's pre-activation with the two products added first and the two biases added first. -/
def gateJoint (xc xh wm wh : Fin 128 → EReal) (bm bh : EReal) : EReal := (dot xc wm + dot xh wh) + (bm + bh)

/-- A gate's pre-activation with each product added to its own bias. -/
def gatePair (xc xh wm wh : Fin 128 → EReal) (bm bh : EReal) : EReal := (dot xc wm + bm) + (dot xh wh + bh)

/-- Four summands regrouped: no finiteness is needed. -/
theorem gateJoint_eq_gatePair (xc xh wm wh : Fin 128 → EReal) (bm bh : EReal) :
    gateJoint xc xh wm wh bm bh = gatePair xc xh wm wh bm bh :=
  add_add_add_comm _ _ _ _

/-- The new hidden entry as the old one plus the update gate times the candidate's distance from it. `pr`, `pu` are the
    reset and update pre-activations, `cm`, `ch` the candidate's message and hidden parts, `h` the old entry. -/
def cellStep (pr pu cm ch h : EReal) : EReal :=
  h + Ideal.logistic pu * (Ideal.tanh (cm + Ideal.logistic pr * ch) - h)

/-- The new hidden entry as the convex combination of the old one and the candidate. -/
def cellBlend (one pr pu cm ch h : EReal) : EReal :=
  (one - Ideal.logistic pu) * h + Ideal.logistic pu * Ideal.tanh (cm + Ideal.logistic pr * ch)

/-- The logistic function of any extended real is a real (`0` at `⊥`, `1` at `⊤`). -/
theorem logistic_real (x : EReal) : ∃ r : ℝ, Ideal.logistic x = (r : EReal) := by
  induction x using EReal.rec with
  | bot => exact ⟨0, by rw [Ideal.logistic_bot, EReal.coe_zero]⟩
  | coe r => exact ⟨_, Ideal.logistic_coe r⟩
  | top => exact ⟨1, by rw [Ideal.logistic_top, EReal.coe_one]⟩

/-- `tanh` of any extended real is a real (`-1` at `⊥`, `1` at `⊤`). -/
theorem tanh_real (x : EReal) : ∃ r : ℝ, Ideal.tanh x = (r : EReal) := by
  induction x using EReal.rec with
  | bot => exact ⟨-1, by rw [Ideal.tanh_bot, EReal.coe_neg, EReal.coe_one]⟩
  | coe r => exact ⟨_, Ideal.tanh_coe r⟩
  | top => exact ⟨1, by rw [Ideal.tanh_top, EReal.coe_one]⟩

/-- At a real old entry the two forms of the new entry agree: `h + u (t - h) = (1 - u) h + u t` in the reals. -/
theorem cellStep_eq_cellBlend (pr pu cm ch : EReal) (h : ℝ) :
    cellStep pr pu cm ch (h : EReal) = cellBlend 1 pr pu cm ch (h : EReal) := by
  obtain ⟨u, hu⟩ := logistic_real pu
  obtain ⟨t, ht⟩ := tanh_real (cm + Ideal.logistic pr * ch)
  unfold cellStep cellBlend
  rw [hu, ht, ← EReal.coe_one, ← EReal.coe_sub, ← EReal.coe_sub, ← EReal.coe_mul, ← EReal.coe_mul, ← EReal.coe_mul,
    ← EReal.coe_add, ← EReal.coe_add]
  congr 1
  ring

/-- The bit pattern of the single-precision `1.0` denotes the real one. -/
theorem ofBits_one : Ideal.ofBits .f32 0x3F800000#32 = (1 : EReal) := by
  simp [Ideal.ofBits, Ideal.ieee, -EReal.coe_mul]
  norm_num

section arrays

variable (xm xcm xh : Rows.Idx → EReal)
  (wrm : Mat.Idx → EReal) (brm : Bias.Idx → EReal) (wrh : Mat.Idx → EReal) (brh : Bias.Idx → EReal)
  (wum : Mat.Idx → EReal) (bum : Bias.Idx → EReal) (wuh : Mat.Idx → EReal) (buh : Bias.Idx → EReal)
  (whm : Mat.Idx → EReal) (bhm : Bias.Idx → EReal) (whh : Mat.Idx → EReal) (bhh : Bias.Idx → EReal)

/-- Row `n` of the combined message `X_m + X_cm`. -/
def msgRow (n : Fin 200000) : Fin 128 → EReal := fun k => xm (ix2 n k) + xcm (ix2 n k)

/-- Row `n` of an array of rows; row `j` of a weight (a linear layer `y = x Wᵀ + b` pairs feature `j` with row `j`). -/
def rowOf (x : Rows.Idx → EReal) (n : Fin 200000) : Fin 128 → EReal := fun k => x (ix2 n k)
def wRow (w : Mat.Idx → EReal) (j : Fin 128) : Fin 128 → EReal := fun k => w (ix2 j k)

/-- The new hidden entry of node `n`, feature `j`, in the arrangement that adds biases first and steps from the old
    entry. -/
def entry (n : Fin 200000) (j : Fin 128) : EReal :=
  cellStep
    (gateJoint (msgRow xm xcm n) (rowOf xh n) (wRow wrm j) (wRow wrh j) (brm (ix1 j)) (brh (ix1 j)))
    (gateJoint (msgRow xm xcm n) (rowOf xh n) (wRow wum j) (wRow wuh j) (bum (ix1 j)) (buh (ix1 j)))
    (dot (msgRow xm xcm n) (wRow whm j) + bhm (ix1 j))
    (dot (rowOf xh n) (wRow whh j) + bhh (ix1 j))
    (xh (ix2 n j))

/-- The new hidden state as one function of the fifteen argument arrays. -/
def G : Rows.Idx → EReal := fun i =>
  entry xm xcm xh wrm brm wrh brh wum bum wuh buh whm bhm whh bhh (i 0) (i 1)

end arrays

end Cert.Gru

end
-- ==== Proof.GruKer.lean ====
/-
  The kernel body's result for one block of 4000 nodes, read at node `p` of the block and feature `q`.

  The body adds the two message blocks, lays the combined message rows and the hidden rows side by side (256 columns),
  and multiplies them by one 256 × 256 weight whose columns `0 … 127` give the reset gate and `128 … 255` the update
  gate; a sum over the 256 shared positions is the sum over the first 128 (the message rows against the weight's upper
  half) plus the sum over the last 128 (the hidden rows against its lower half). The candidate's two parts are separate
  128-wide products. Changes of float format are the identity on the extended reals. The new entry is the old hidden
  entry plus the update gate times the candidate's distance from it.
-/
import proofs.«148004_j57363583205517_2_alg».proof.Proof.Gen.KernelIdeal.Skeleton
import proofs.«148004_j57363583205517_2_alg».proof.Proof.LibMatRead
import proofs.«148004_j57363583205517_2_alg».proof.Proof.GruSpec
import Idealize.ShloMosaic.Lib.Pipeline.Value

noncomputable section
open scoped BigOperators
open Idealize.ShloMosaic Idealize.ShloMosaic.ValueIdx
open Cert.KernelIdeal Cert.KernelIdeal.Gen

namespace Cert.Gru.Ker

/-- Position `k` of the first and of the second half of 256. -/
abbrev lft (k : Fin 128) : Fin 256 := ⟨k.val, by have := k.isLt; omega⟩
abbrev rgt (k : Fin 128) : Fin 256 := ⟨128 + k.val, by have := k.isLt; omega⟩

/-- A sum over 256 positions is the sum over the first half plus the sum over the second. -/
theorem sum_256 (f : Fin 256 → EReal) :
    ∑ c : Fin 256, f c = ∑ k : Fin 128, f (lft k) + ∑ k : Fin 128, f (rgt k) :=
  Fin.sum_univ_add (a := 128) (b := 128) f

/-- Two blocks laid side by side: the first 128 columns are the first block's. -/
theorem cat_lft (a b : FVec Ideal S4000x128 .bf16) (p : Fin 4000) (k : Fin 128) :
    concatenate S4000x256 1 [⟨S4000x128, a⟩, ⟨S4000x128, b⟩] concatenates_S4000x128_S4000x128_S4000x256_d1 (ix2 p (lft k))
      = a (ix2 p k) :=
  concatenate_pair_apply_left (1 : Fin 2) a b _ (ix2 p (lft k)) rfl (ix2 p k)
    (fun d => match d with | ⟨0, _⟩ => rfl | ⟨1, _⟩ => rfl)

/-- The last 128 columns are the second block's. -/
theorem cat_rgt (a b : FVec Ideal S4000x128 .bf16) (p : Fin 4000) (k : Fin 128) :
    concatenate S4000x256 1 [⟨S4000x128, a⟩, ⟨S4000x128, b⟩] concatenates_S4000x128_S4000x128_S4000x256_d1 (ix2 p (rgt k))
      = b (ix2 p k) :=
  concatenate_pair_apply_right (1 : Fin 2) a b _ (ix2 p (rgt k)) rfl rfl (ix2 p k)
    (fun d hd => match d, hd with | ⟨0, _⟩, _ => rfl | ⟨1, _⟩, hd => absurd rfl hd) (Nat.add_comm _ _)

/-- The combined message block and the hidden block, in the format the products read them in. -/
def xcVec (v0 v1 : Vec Ideal S4000x128 .f32) : FVec Ideal S4000x128 .bf16 := truncf .bf16 (addf v0 v1) bitsLt_bf16_f32
def xhVec (v3 : Vec Ideal S4000x128 .f32) : FVec Ideal S4000x128 .bf16 := truncf .bf16 v3 bitsLt_bf16_f32

/-- Both gates' pre-activations side by side: the 256-wide product plus the 256-wide bias row. -/
def ruVec (v0 v1 v3 : Vec Ideal S4000x128 .f32) (v7 : Vec Ideal S256x256 .bf16) (v10 : Vec Ideal S1x256 .f32) :
    FVec Ideal S4000x256 .f32 :=
  addf (matmul dot_S4000x256_S256x256_S4000x256_1_0_0_1_n_n none
      (concatenate S4000x256 1 [⟨S4000x128, xcVec v0 v1⟩, ⟨S4000x128, xhVec v3⟩] concatenates_S4000x128_S4000x128_S4000x256_d1)
      (shapeCast S256x256 v7 shapeCasts_S256x256_S256x256 : FVec Ideal S256x256 .bf16) (constant S4000x256 .f32 0x00000000#32))
    (broadcastTo S4000x256 (shapeCast S1x256 v10 shapeCasts_S1x256_S1x256 : FVec Ideal S1x256 .f32) broadcasts_S1x256_S4000x256)

/-- A 128-wide product plus its bias row: the candidate's message part and its hidden part. -/
def projVec (x : FVec Ideal S4000x128 .bf16) (w : Vec Ideal S128x128 .bf16) (bb : Vec Ideal S1x128 .f32) :
    FVec Ideal S4000x128 .f32 :=
  addf (matmul dot_S4000x128_S128x128_S4000x128_1_0_0_1_n_n none x
      (shapeCast S128x128 w shapeCasts_S128x128_S128x128 : FVec Ideal S128x128 .bf16) (constant S4000x128 .f32 0x00000000#32))
    (broadcastTo S4000x128 (shapeCast S1x128 bb shapeCasts_S1x128_S1x128 : FVec Ideal S1x128 .f32) broadcasts_S1x128_S4000x128)

/-- Column `c` of the side-by-side pre-activations at node `p`: the message row against the upper half of column `c`,
    plus the hidden row against its lower half, plus the bias. -/
theorem ruVec_at (v0 v1 v3 : Vec Ideal S4000x128 .f32) (v7 : Vec Ideal S256x256 .bf16) (v10 : Vec Ideal S1x256 .f32)
    (p : Fin 4000) (c : Fin 256) :
    ruVec v0 v1 v3 v7 v10 (ix2 p c)
      = ((∑ k : Fin 128, (v0 (ix2 p k) + v1 (ix2 p k)) * v7 (ix2 (lft k) c))
          + ∑ k : Fin 128, v3 (ix2 p k) * v7 (ix2 (rgt k) c)) + v10 (ix2 0 c) := by
  simp only [ruVec, addf, matmul]
  rw [Cert.MatRead.matmul_row_col_apply _ rfl rfl rfl rfl rfl rfl, shapeCast_self, shapeCast_self, sum_256,
    broadcastTo_apply v10 broadcasts_S1x256_S4000x256 (ix2 p c) (ix2 0 c) (fun a => match a with
      | ⟨0, _⟩ => by show 0 = if (1 : Nat) = 1 then 0 else p.val; rw [if_pos rfl]
      | ⟨1, _⟩ => by show c.val = if (256 : Nat) = 1 then 0 else c.val; rw [if_neg (by decide)])]
  simp only [cat_lft, cat_rgt, Ideal.addf_def]
  rfl

/-- A 128-wide product plus its bias at node `p`, feature `q`. -/
theorem projVec_at (x : FVec Ideal S4000x128 .bf16) (w : Vec Ideal S128x128 .bf16) (bb : Vec Ideal S1x128 .f32)
    (p : Fin 4000) (q : Fin 128) :
    projVec x w bb (ix2 p q) = (∑ k : Fin 128, x (ix2 p k) * w (ix2 k q)) + bb (ix2 0 q) := by
  simp only [projVec, addf, matmul]
  rw [Cert.MatRead.matmul_row_col_apply _ rfl rfl rfl rfl rfl rfl, shapeCast_self, shapeCast_self,
    broadcastTo_apply bb broadcasts_S1x128_S4000x128 (ix2 p q) (ix2 0 q) (fun a => match a with
      | ⟨0, _⟩ => by show 0 = if (1 : Nat) = 1 then 0 else p.val; rw [if_pos rfl]
      | ⟨1, _⟩ => by show q.val = if (128 : Nat) = 1 then 0 else q.val; rw [if_neg (by decide)])]
  rfl

section payload

variable (v0 v1 v3 : Vec Ideal S4000x128 .f32) (v7 : Vec Ideal S256x256 .bf16) (v10 : Vec Ideal S1x256 .f32)
  (v14 : Vec Ideal S128x128 .bf16) (v17 : Vec Ideal S1x128 .f32) (v21 : Vec Ideal S128x128 .bf16) (v24 : Vec Ideal S1x128 .f32)

/-- The body's result at an index, over the named projections: the step from the old entry. -/
theorem pay_step (i : S4000x128.Idx) :
    k0_pay1 (F := Ideal) v0 v1 v3 v7 v10 v14 v17 v21 v24 i
      = Cert.Gru.cellStep
          (extractStridedSlice S4000x128 ![0, 0] (ruVec v0 v1 v3 v7 v10) slices_S4000x256_o0_0_S4000x128 i)
          (extractStridedSlice S4000x128 ![0, 128] (ruVec v0 v1 v3 v7 v10) slices_S4000x256_o0_128_S4000x128 i)
          (projVec (xcVec v0 v1) v14 v17 i) (projVec (xhVec v3) v21 v24 i) (v3 i) := rfl

/-- The body's result at node `p` of the block and feature `q`, from the entries of the loaded blocks. -/
theorem pay_at (p : Fin 4000) (q : Fin 128) :
    k0_pay1 (F := Ideal) v0 v1 v3 v7 v10 v14 v17 v21 v24 (ix2 p q)
      = Cert.Gru.cellStep
          (((∑ k : Fin 128, (v0 (ix2 p k) + v1 (ix2 p k)) * v7 (ix2 (lft k) (lft q)))
            + ∑ k : Fin 128, v3 (ix2 p k) * v7 (ix2 (rgt k) (lft q))) + v10 (ix2 0 (lft q)))
          (((∑ k : Fin 128, (v0 (ix2 p k) + v1 (ix2 p k)) * v7 (ix2 (lft k) (rgt q)))
            + ∑ k : Fin 128, v3 (ix2 p k) * v7 (ix2 (rgt k) (rgt q))) + v10 (ix2 0 (rgt q)))
          ((∑ k : Fin 128, (v0 (ix2 p k) + v1 (ix2 p k)) * v14 (ix2 k q)) + v17 (ix2 0 q))
          ((∑ k : Fin 128, v3 (ix2 p k) * v21 (ix2 k q)) + v24 (ix2 0 q))
          (v3 (ix2 p q)) := by
  rw [pay_step,
    extractStridedSlice_apply ![0, 0] (ruVec v0 v1 v3 v7 v10) slices_S4000x256_o0_0_S4000x128 (ix2 p q) (ix2 p (lft q))
      (fun a => match a with
        | ⟨0, _⟩ => by show p.val = 0 + p.val; omega
        | ⟨1, _⟩ => by show q.val = 0 + q.val; omega),
    extractStridedSlice_apply ![0, 128] (ruVec v0 v1 v3 v7 v10) slices_S4000x256_o0_128_S4000x128 (ix2 p q) (ix2 p (rgt q))
      (fun a => match a with
        | ⟨0, _⟩ => by show p.val = 0 + p.val; omega
        | ⟨1, _⟩ => by show 128 + q.val = 128 + q.val; rfl),
    ruVec_at, ruVec_at, projVec_at, projVec_at]
  rfl

end payload

end Cert.Gru.Ker

end
-- ==== Proof.GruHost.lean ====
/-
  The operands the host prepares for the kernel, read at an index.

  The fused gate weight is `[W_rmᵀ | W_umᵀ]` on top of `[W_rhᵀ | W_uhᵀ]`: its entry at row `k` of the upper half and column
  `q` of the left half is `W_rm[q, k]`, and so on for the other three quarters. The fused bias is `b_rm + b_rh` followed by
  `b_um + b_uh`, as one row. The candidate's weights are transposed, its biases reshaped to one row. Changes of float
  format are the identity on the extended reals.
-/
import proofs.«148004_j57363583205517_2_alg».proof.Proof.Gen.KernelIdeal.Frame
import proofs.«148004_j57363583205517_2_alg».proof.Proof.GruKer
import Idealize.ShloMosaic.Lib.StableHlo.Run
import Idealize.ShloMosaic.Lib.Pipeline.Value

noncomputable section
open scoped BigOperators
open Idealize.ShloMosaic Idealize.ShloMosaic.ValueIdx Idealize.ShloMosaic.StableHlo Idealize.SL.Sem Idealize.ShloMosaic.TcCoe
open Cert.KernelIdeal Cert.KernelIdeal.Gen Cert.Gru.Ker

namespace Cert.Gru.Host

/-- A transposed square weight at `(k, q)` is the weight at `(q, k)`. -/
theorem tr_at (A : FVec Ideal S128x128 .f32) (k q : Fin 128) :
    transpose S128x128 [1, 0] A transposes_S128x128_S128x128_1_0 (ix2 k q) = A (ix2 q k) :=
  transpose_apply [1, 0] A _ (ix2 k q) (ix2 q k) (fun d => match d with | ⟨0, _⟩ => rfl | ⟨1, _⟩ => rfl)

/-- Two transposed weights side by side. -/
def pairT (A B : FVec Ideal S128x128 .f32) : FVec Ideal S128x256 .f32 :=
  concatenate S128x256 1 [⟨S128x128, transpose S128x128 [1, 0] A transposes_S128x128_S128x128_1_0⟩,
    ⟨S128x128, transpose S128x128 [1, 0] B transposes_S128x128_S128x128_1_0⟩] concatenates_S128x128_S128x128_S128x256_d1

theorem pairT_lft (A B : FVec Ideal S128x128 .f32) (k q : Fin 128) : pairT A B (ix2 k (lft q)) = A (ix2 q k) := by
  unfold pairT
  rw [concatenate_pair_apply_left (1 : Fin 2) (transpose S128x128 [1, 0] A transposes_S128x128_S128x128_1_0) (transpose S128x128 [1, 0] B transposes_S128x128_S128x128_1_0)
      concatenates_S128x128_S128x128_S128x256_d1 (ix2 k (lft q)) rfl (ix2 k q)
    (fun d => match d with | ⟨0, _⟩ => rfl | ⟨1, _⟩ => rfl), tr_at]

theorem pairT_rgt (A B : FVec Ideal S128x128 .f32) (k q : Fin 128) : pairT A B (ix2 k (rgt q)) = B (ix2 q k) := by
  unfold pairT
  rw [concatenate_pair_apply_right (1 : Fin 2) (transpose S128x128 [1, 0] A transposes_S128x128_S128x128_1_0) (transpose S128x128 [1, 0] B transposes_S128x128_S128x128_1_0)
      concatenates_S128x128_S128x128_S128x256_d1 (ix2 k (rgt q)) rfl rfl (ix2 k q)
    (fun d hd => match d, hd with | ⟨0, _⟩, _ => rfl | ⟨1, _⟩, hd => absurd rfl hd) (Nat.add_comm _ _), tr_at]

/-- The fused gate weight: two side-by-side pairs, one on top of the other, in the products' format. -/
def fusedW (A B C D : FVec Ideal S128x128 .f32) : FVec Ideal S256x256 .bf16 :=
  truncf .bf16 (concatenate S256x256 0 [⟨S128x256, pairT A B⟩, ⟨S128x256, pairT C D⟩]
    concatenates_S128x256_S128x256_S256x256_d0) bitsLt_bf16_f32

theorem fusedW_top (A B C D : FVec Ideal S128x128 .f32) (k : Fin 128) (c : Fin 256) :
    fusedW A B C D (ix2 (lft k) c) = pairT A B (ix2 k c) := by
  show concatenate S256x256 0 [⟨S128x256, pairT A B⟩, ⟨S128x256, pairT C D⟩] concatenates_S128x256_S128x256_S256x256_d0 (ix2 (lft k) c) = _
  exact concatenate_pair_apply_left (0 : Fin 2) (pairT A B) (pairT C D) concatenates_S128x256_S128x256_S256x256_d0
    (ix2 (lft k) c) rfl (ix2 k c)
    (fun d => match d with | ⟨0, _⟩ => rfl | ⟨1, _⟩ => rfl)

theorem fusedW_bot (A B C D : FVec Ideal S128x128 .f32) (k : Fin 128) (c : Fin 256) :
    fusedW A B C D (ix2 (rgt k) c) = pairT C D (ix2 k c) := by
  show concatenate S256x256 0 [⟨S128x256, pairT A B⟩, ⟨S128x256, pairT C D⟩] concatenates_S128x256_S128x256_S256x256_d0 (ix2 (rgt k) c) = _
  exact concatenate_pair_apply_right (0 : Fin 2) (pairT A B) (pairT C D) concatenates_S128x256_S128x256_S256x256_d0
    (ix2 (rgt k) c) rfl rfl (ix2 k c)
    (fun d hd => match d, hd with | ⟨0, _⟩, hd => absurd rfl hd | ⟨1, _⟩, _ => rfl) (Nat.add_comm _ _)

/-- The fused gate bias as one row: the reset biases' sum, then the update biases' sum. -/
def fusedB (a b c d : FVec Ideal S128 .f32) : FVec Ideal S1x256 .f32 :=
  shapeCast S1x256 (concatenate S256 0 [⟨S128, addf a b⟩, ⟨S128, addf c d⟩] concatenates_S128_S128_S256_d0)
    shapeCasts_S256_S1x256

theorem fusedB_lft (a b c d : FVec Ideal S128 .f32) (q : Fin 128) :
    fusedB a b c d (ix2 0 (lft q)) = a (ix1 q) + b (ix1 q) := by
  unfold fusedB
  rw [shapeCast_addUnit_apply ![256]]
  have e : (fun s : Fin 1 => (ix2 (0 : Fin 1) (lft q)) s.succ) = ix1 (lft q) :=
    funext fun s => match s with | ⟨0, _⟩ => rfl
  rw [e, concatenate_pair_apply_left (0 : Fin 1) (addf a b) (addf c d) concatenates_S128_S128_S256_d0 (ix1 (lft q)) rfl (ix1 q)
    (fun s => match s with | ⟨0, _⟩ => rfl)]
  rfl

theorem fusedB_rgt (a b c d : FVec Ideal S128 .f32) (q : Fin 128) :
    fusedB a b c d (ix2 0 (rgt q)) = c (ix1 q) + d (ix1 q) := by
  unfold fusedB
  rw [shapeCast_addUnit_apply ![256]]
  have e : (fun s : Fin 1 => (ix2 (0 : Fin 1) (rgt q)) s.succ) = ix1 (rgt q) :=
    funext fun s => match s with | ⟨0, _⟩ => rfl
  rw [e, concatenate_pair_apply_right (0 : Fin 1) (addf a b) (addf c d) concatenates_S128_S128_S256_d0 (ix1 (rgt q)) rfl rfl (ix1 q)
    (fun s hs => match s, hs with | ⟨0, _⟩, hs => absurd rfl hs) (Nat.add_comm _ _)]
  rfl

/-- A transposed weight in the products' format, and a bias as one row. -/
def wT (A : FVec Ideal S128x128 .f32) : FVec Ideal S128x128 .bf16 :=
  truncf .bf16 (transpose S128x128 [1, 0] A transposes_S128x128_S128x128_1_0) bitsLt_bf16_f32
def bRow (a : FVec Ideal S128 .f32) : FVec Ideal S1x128 .f32 := shapeCast S1x128 a shapeCasts_S128_S1x128

theorem wT_at (A : FVec Ideal S128x128 .f32) (k q : Fin 128) : wT A (ix2 k q) = A (ix2 q k) := tr_at A k q

theorem bRow_at (a : FVec Ideal S128 .f32) (q : Fin 128) : bRow a (ix2 0 q) = a (ix1 q) := by
  unfold bRow
  rw [shapeCast_addUnit_apply ![128]]
  exact congrArg a (funext fun s => match s with | ⟨0, _⟩ => rfl)

/-! ## What the region finds in each prepared operand's array -/

variable (m : (ℓ : Loc nD τ sig) → Buf (Elt Ideal) ℓ)

theorem V_wru (c : Dev nD) : (V m c main_v7 : S256x256.Idx → EReal)
    = fusedW (m ((c : Thread nD τ).loc main_arg3)) (m ((c : Thread nD τ).loc main_arg7))
        (m ((c : Thread nD τ).loc main_arg5)) (m ((c : Thread nD τ).loc main_arg9)) := by
  dsimp only [Gen.V, Gen.hostOps0]; after_results; rfl

theorem V_bru (c : Dev nD) : (V m c main_v11 : S1x256.Idx → EReal)
    = fusedB (m ((c : Thread nD τ).loc main_arg4)) (m ((c : Thread nD τ).loc main_arg6))
        (m ((c : Thread nD τ).loc main_arg8)) (m ((c : Thread nD τ).loc main_arg10)) := by
  dsimp only [Gen.V, Gen.hostOps0]; after_results; rfl

theorem V_whm (c : Dev nD) : (V m c main_v13 : S128x128.Idx → EReal) = wT (m ((c : Thread nD τ).loc main_arg11)) := by
  dsimp only [Gen.V, Gen.hostOps0]; after_results; rfl

theorem V_whh (c : Dev nD) : (V m c main_v15 : S128x128.Idx → EReal) = wT (m ((c : Thread nD τ).loc main_arg13)) := by
  dsimp only [Gen.V, Gen.hostOps0]; after_results; rfl

theorem V_bhm (c : Dev nD) : (V m c main_v16 : S1x128.Idx → EReal) = bRow (m ((c : Thread nD τ).loc main_arg12)) := by
  dsimp only [Gen.V, Gen.hostOps0]; after_results; rfl

theorem V_bhh (c : Dev nD) : (V m c main_v17 : S1x128.Idx → EReal) = bRow (m ((c : Thread nD τ).loc main_arg14)) := by
  dsimp only [Gen.V, Gen.hostOps0]; after_results; rfl

end Cert.Gru.Host

end
-- ==== Proof.GruBlock.lean ====
/-
  From blocks to the whole array, and the kernel's run.

  Grid point `t` of fifty handles nodes `4000 t … 4000 t + 3999`: its three node-indexed input blocks and its output block
  are rows `4000 t + p` of their arrays, and its six weight and bias blocks are the whole prepared operands. So what
  point `t` writes back is block `t` of the specification `G` of the arguments; the fifty blocks cover all 200000 nodes
  (node `n` is in block `n / 4000`), and the result array ends holding `G`.
-/
import proofs.«148004_j57363583205517_2_alg».proof.Proof.Gen.KernelIdeal.Value
import proofs.«148004_j57363583205517_2_alg».proof.Proof.GruHost
import Idealize.ShloMosaic.Lib.Pipeline.Value

noncomputable section
open scoped BigOperators
open Cert.KernelIdeal Cert.KernelIdeal.Gen Idealize.ShloMosaic Idealize.ShloMosaic.TcCoe Idealize.SL.Sem
open Idealize.ShloMosaic.ValueIdx
open Idealize.ShloMosaic.Pipeline (Dat)
open Cert.Gru Cert.Gru.Ker Cert.Gru.Host

namespace Cert.Gru.Block

/-- The body's result at node `p` of a block and feature `q` is the specification's entry at node `n`, when the three
    node-indexed blocks hold row `n` of their arrays at `p` and the other six blocks are the prepared operands. -/
theorem pay_eq_entry
    (x0 x1 x2 : Vec Ideal S4000x128 .f32) (x3 : Vec Ideal S256x256 .bf16) (x4 : Vec Ideal S1x256 .f32)
    (x5 : Vec Ideal S128x128 .bf16) (x6 : Vec Ideal S1x128 .f32) (x7 : Vec Ideal S128x128 .bf16) (x8 : Vec Ideal S1x128 .f32)
    (xm xcm xh : FVec Ideal S200000x128 .f32)
    (wrm : FVec Ideal S128x128 .f32) (brm : FVec Ideal S128 .f32) (wrh : FVec Ideal S128x128 .f32) (brh : FVec Ideal S128 .f32)
    (wum : FVec Ideal S128x128 .f32) (bum : FVec Ideal S128 .f32) (wuh : FVec Ideal S128x128 .f32) (buh : FVec Ideal S128 .f32)
    (whm : FVec Ideal S128x128 .f32) (bhm : FVec Ideal S128 .f32) (whh : FVec Ideal S128x128 .f32) (bhh : FVec Ideal S128 .f32)
    (n : Fin 200000) (p : Fin 4000) (q : Fin 128)
    (h0 : ∀ k : Fin 128, x0 (ix2 p k) = xm (ix2 n k)) (h1 : ∀ k : Fin 128, x1 (ix2 p k) = xcm (ix2 n k))
    (h2 : ∀ k : Fin 128, x2 (ix2 p k) = xh (ix2 n k))
    (h3 : x3 = fusedW wrm wum wrh wuh) (h4 : x4 = fusedB brm brh bum buh)
    (h5 : x5 = wT whm) (h6 : x6 = bRow bhm) (h7 : x7 = wT whh) (h8 : x8 = bRow bhh) :
    k0_pay1 (F := Ideal) x0 x1 x2 x3 x4 x5 x6 x7 x8 (ix2 p q)
      = entry xm xcm xh wrm brm wrh brh wum bum wuh buh whm bhm whh bhh n q := by
  subst h3 h4 h5 h6 h7 h8
  rw [pay_at]
  simp only [h0, h1, h2, fusedW_top, fusedW_bot, pairT_lft, pairT_rgt, fusedB_lft, fusedB_rgt, wT_at, bRow_at]
  rfl

variable (m : (ℓ : Loc nD τ sig) → Buf (Elt Ideal) ℓ) (ρ : Dev nD → PrngReg)

/-- The specification at the arguments as launched on core `c`. -/
def Gm (c : Dev nD) : S200000x128.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

theorem hz : (![0, 0] : Fin 2 → Nat) = fun _ => 0 := funext fun a => by fin_cases a <;> rfl

/-- The printed index maps, decided over the fifty points: the node-indexed windows are at block `t` of their first axis. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_9.index t (0 : Fin 2) = t.val ∧ win0_9.index t (1 : Fin 2) = 0 :=
  (by decide +kernel : ∀ t : Fin grid0.N, _)

/-- The weight and bias windows are at block zero at every point: their one block is the whole array. -/
theorem idx_whole : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- What point `t` writes back is block `t` of the specification of the arguments. -/
theorem flushed_eq (c : Dev nD) (t : Fin cfg0.N) :
    (dats m 0 c).flushed 9 t = ((cfg0.win 9).blk t).view.read (Elt Ideal) (Gm m c) := by
  rw [Cert.KernelIdeal.Value.flushed9]
  unfold out0_9
  rw [View.canon_unit_zero hz]
  simp only [View.ld_unit_zero (S := S4000x128) hz, View.ld_unit_zero (S := S256x256) hz,
    View.ld_unit_zero (S := S1x256) hz, View.ld_unit_zero (S := S128x128) hz, View.ld_unit_zero (S := S1x128) hz]
  have ht : t.val < 50 := lt_of_lt_of_eq t.isLt N_0
  obtain ⟨a0, a1, b0, b1, c0, c1, o0, o1⟩ := idx_rows t
  obtain ⟨w30, w31, w40, w41, w50, w51, w60, w61, w70, w71, w80, w81⟩ := idx_whole t
  funext j
  obtain ⟨p, q, rfl⟩ : ∃ (p : Fin 4000) (q : Fin 128), j = ix2 p q := ⟨j 0, j 1, eq_ix2 j⟩
  have hp : p.val < 4000 := p.isLt
  let n : Fin 200000 := ⟨t.val * 4000 + p.val, by omega⟩
  show k0_pay1 (F := Ideal) (iblk m c 0 t) (iblk m c 1 t) (iblk m c 2 t) (iblk m c 3 t) (iblk m c 4 t) (iblk m c 5 t) (iblk m c 6 t) (iblk m c 7 t) (iblk m c 8 t) (ix2 p q) = Gm m c (((cfg0.win 9).blk t).view.emb (ix2 p q))
  have hemb : ((cfg0.win 9).blk t).view.emb (ix2 p q) = ix2 n q := by
    funext a; apply Fin.ext
    match a with
    | ⟨0, _⟩ => show win0_9.index t (0 : Fin 2) * 4000 + 1 * p.val = t.val * 4000 + p.val; omega
    | ⟨1, _⟩ => show win0_9.index t (1 : Fin 2) * 128 + 1 * q.val = q.val; omega
  rw [hemb]
  refine pay_eq_entry (iblk m c 0 t) (iblk m c 1 t) (iblk m c 2 t) (iblk m c 3 t) (iblk m c 4 t) (iblk m c 5 t) (iblk m c 6 t) (iblk m c 7 t) (iblk m c 8 t) _ _ _ _ _ _ _ _ _ _ _ _ _ _ _ n p q ?_ ?_ ?_ ?_ ?_ ?_ ?_ ?_ ?_
  · intro k
    show V m c main_arg0 (((cfg0.win 0).blk t).view.emb (ix2 p k)) = _
    rw [V_main_arg0]
    refine congrArg _ (funext fun a => Fin.ext ?_)
    match a with
    | ⟨0, _⟩ => show win0_0.index t (0 : Fin 2) * 4000 + 1 * p.val = t.val * 4000 + p.val; omega
    | ⟨1, _⟩ => show win0_0.index t (1 : Fin 2) * 128 + 1 * k.val = k.val; omega
  · intro k
    show V m c main_arg1 (((cfg0.win 1).blk t).view.emb (ix2 p k)) = _
    rw [V_main_arg1]
    refine congrArg _ (funext fun a => Fin.ext ?_)
    match a with
    | ⟨0, _⟩ => show win0_1.index t (0 : Fin 2) * 4000 + 1 * p.val = t.val * 4000 + p.val; omega
    | ⟨1, _⟩ => show win0_1.index t (1 : Fin 2) * 128 + 1 * k.val = k.val; omega
  · intro k
    show V m c main_arg2 (((cfg0.win 2).blk t).view.emb (ix2 p k)) = _
    rw [V_main_arg2]
    refine congrArg _ (funext fun a => Fin.ext ?_)
    match a with
    | ⟨0, _⟩ => show win0_2.index t (0 : Fin 2) * 4000 + 1 * p.val = t.val * 4000 + p.val; omega
    | ⟨1, _⟩ => show win0_2.index t (1 : Fin 2) * 128 + 1 * k.val = k.val; omega
  · funext y
    show V m c main_v7 (((cfg0.win 3).blk t).view.emb y) = _
    rw [V_wru]
    refine congrArg _ (funext fun a => Fin.ext ?_)
    match a with
    | ⟨0, _⟩ => show win0_3.index t (0 : Fin 2) * 256 + 1 * (y 0).val = (y 0).val; omega
    | ⟨1, _⟩ => show win0_3.index t (1 : Fin 2) * 256 + 1 * (y 1).val = (y 1).val; omega
  · funext y
    show V m c main_v11 (((cfg0.win 4).blk t).view.emb y) = _
    rw [V_bru]
    refine congrArg _ (funext fun a => Fin.ext ?_)
    match a with
    | ⟨0, _⟩ => show win0_4.index t (0 : Fin 2) * 1 + 1 * (y 0).val = (y 0).val; omega
    | ⟨1, _⟩ => show win0_4.index t (1 : Fin 2) * 256 + 1 * (y 1).val = (y 1).val; omega
  · funext y
    show V m c main_v13 (((cfg0.win 5).blk t).view.emb y) = _
    rw [V_whm]
    refine congrArg _ (funext fun a => Fin.ext ?_)
    match a with
    | ⟨0, _⟩ => show win0_5.index t (0 : Fin 2) * 128 + 1 * (y 0).val = (y 0).val; omega
    | ⟨1, _⟩ => show win0_5.index t (1 : Fin 2) * 128 + 1 * (y 1).val = (y 1).val; omega
  · funext y
    show V m c main_v16 (((cfg0.win 6).blk t).view.emb y) = _
    rw [V_bhm]
    refine congrArg _ (funext fun a => Fin.ext ?_)
    match a with
    | ⟨0, _⟩ => show win0_6.index t (0 : Fin 2) * 1 + 1 * (y 0).val = (y 0).val; omega
    | ⟨1, _⟩ => show win0_6.index t (1 : Fin 2) * 128 + 1 * (y 1).val = (y 1).val; omega
  · funext y
    show V m c main_v15 (((cfg0.win 7).blk t).view.emb y) = _
    rw [V_whh]
    refine congrArg _ (funext fun a => Fin.ext ?_)
    match a with
    | ⟨0, _⟩ => show win0_7.index t (0 : Fin 2) * 128 + 1 * (y 0).val = (y 0).val; omega
    | ⟨1, _⟩ => show win0_7.index t (1 : Fin 2) * 128 + 1 * (y 1).val = (y 1).val; omega
  · funext y
    show V m c main_v17 (((cfg0.win 8).blk t).view.emb y) = _
    rw [V_bhh]
    refine congrArg _ (funext fun a => Fin.ext ?_)
    match a with
    | ⟨0, _⟩ => show win0_8.index t (0 : Fin 2) * 1 + 1 * (y 0).val = (y 0).val; omega
    | ⟨1, _⟩ => show win0_8.index t (1 : Fin 2) * 128 + 1 * (y 1).val = (y 1).val; omega

/-- An index of the result array is in point `t`'s block iff each coordinate is in the block's range on its axis. -/
theorem mem_blk (t : Fin cfg0.N) (i : S200000x128.Idx) :
    i ∈ ((cfg0.win 9).blk t).view.set ↔ ∀ a : Fin 2, win0_9.index t a * S4000x128.size a ≤ (i a).val
      ∧ (i a).val < win0_9.index t a * S4000x128.size a + S4000x128.size a := by
  show i ∈ ((View.whole main_v18).slice (win0_9.rect t)).set ↔ _
  rw [View.set_slice_whole, Rect.mem_set_unit]
  exact Iff.rfl

/-- Every node is in the block of the point `n / 4000`. -/
theorem cover (i : S200000x128.Idx) :
    ∃ t : Fin cfg0.N, (cfg0.win 9).flush t = true ∧ i ∈ ((cfg0.win 9).blk t).view.set := by
  have hi0 : (i 0).val < 200000 := (i 0).isLt
  have hi1 : (i 1).val < 128 := (i 1).isLt
  have hN : cfg0.N = 50 := N_0
  let t : Fin cfg0.N := ⟨(i 0).val / 4000, by rw [hN]; omega⟩
  have htv : t.val = (i 0).val / 4000 := rfl
  obtain ⟨-, -, -, -, -, -, o0, o1⟩ := idx_rows t
  refine ⟨t, flush0_9 t, ?_⟩
  rw [mem_blk]
  intro a
  match a with
  | ⟨0, _⟩ =>
    show win0_9.index t (0 : Fin 2) * 4000 ≤ (i 0).val ∧ (i 0).val < win0_9.index t (0 : Fin 2) * 4000 + 4000
    omega
  | ⟨1, _⟩ =>
    show win0_9.index t (1 : Fin 2) * 128 ≤ (i 1).val ∧ (i 1).val < win0_9.index t (1 : Fin 2) * 128 + 128
    omega

/-- The result array after the run is the specification of the arguments. -/
theorem final (c : Dev nD) : (dats m 0 c).arrAt 9 cfg0.N = Gm m c :=
  (dats m 0 c).arrAt_eq_of_cover 9 (Gm m c) (fun t _ => flushed_eq m c t) cover

/-- The kernel's run: it terminates with the result at the specification of the arguments, the arguments unchanged. -/
theorem run : θ_run defs (onTc (τ := τ) (main (F := Ideal))) ⟨m, fun _ => 0, ρ⟩ fun r => ∀ c : Dev nD,
      r.2.mem ((c : Thread nD τ).loc main_v18) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun _ h c => ⟨(h c).1.trans (final m c), (h c).2⟩) (Cert.KernelIdeal.Value.run_blocks m ρ)

end Cert.Gru.Block

end
-- ==== Proof.GruRef.lean ====
/-
  The reference's result, read at node `n` and feature `j`.

  The reference stacks the three message-side weights into one array of 384 rows (reset, update, candidate) and the three
  hidden-side weights into another, multiplies the combined message rows by the transpose of the first stack and the hidden rows
  by the transpose of the second, adds the stacked biases, and cuts each of the two products into three column ranges. Column
  `j`, `128 + j` and `256 + j` of a product is therefore the row `n` against row `j` of the reset, update and candidate
  weight, plus that weight's bias at `j`. The logistic function is spelled out as `1 / (1 + e^(-x))`, which is the logistic
  function of the extended reals by definition, and the new entry is `(1 - u) · h + u · t`.
-/
import proofs.«148004_j57363583205517_2_alg».proof.Proof.Gen.ReferenceIdeal.Read
import proofs.«148004_j57363583205517_2_alg».proof.Proof.GruSpec

noncomputable section
open scoped BigOperators
open Idealize.ShloMosaic Idealize.ShloMosaic.ValueIdx
open Cert.ReferenceIdeal Cert.ReferenceIdeal.Read

namespace Cert.Gru.Ref

/-- Row `j` of the first, second and third of three stacked blocks of 128 rows. -/
abbrev lo (j : Fin 128) : Fin 384 := ⟨j.val, by have := j.isLt; omega⟩
abbrev mid (j : Fin 128) : Fin 384 := ⟨128 + j.val, by have := j.isLt; omega⟩
abbrev hi (j : Fin 128) : Fin 384 := ⟨256 + j.val, by have := j.isLt; omega⟩

variable (A B C : (⟨S128x128, .f32⟩ : BufTy).Contents (Elt Ideal))
variable (a b c : (⟨S128, .f32⟩ : BufTy).Contents (Elt Ideal))

/-- Rows `0 … 127` of three stacked weights are the first weight's rows. -/
theorem stack_lo (j k : Fin 128) : val_main_v3 (F := Ideal) A B C (ix2 (lo j) k) = A (ix2 j k) := by
  unfold val_main_v3
  exact concatenate_apply_piece (0 : Fin 2) [⟨S128x128, A⟩, ⟨S128x128, B⟩, ⟨S128x128, C⟩] _ (ix2 (lo j) k) 0 (by simp)
    S128x128 A rfl rfl 0 rfl (ix2 j k)
    (fun d hd => match d, hd with | ⟨0, _⟩, hd => absurd rfl hd | ⟨1, _⟩, _ => rfl) (Nat.zero_add _)

/-- Rows `128 … 255` are the second weight's rows. -/
theorem stack_mid (j k : Fin 128) : val_main_v3 (F := Ideal) A B C (ix2 (mid j) k) = B (ix2 j k) := by
  unfold val_main_v3
  exact concatenate_apply_piece (0 : Fin 2) [⟨S128x128, A⟩, ⟨S128x128, B⟩, ⟨S128x128, C⟩] _ (ix2 (mid j) k) 1 (by simp)
    S128x128 B rfl rfl 128 rfl (ix2 j k)
    (fun d hd => match d, hd with | ⟨0, _⟩, hd => absurd rfl hd | ⟨1, _⟩, _ => rfl) rfl

/-- Rows `256 … 383` are the third weight's rows. -/
theorem stack_hi (j k : Fin 128) : val_main_v3 (F := Ideal) A B C (ix2 (hi j) k) = C (ix2 j k) := by
  unfold val_main_v3
  exact concatenate_apply_piece (0 : Fin 2) [⟨S128x128, A⟩, ⟨S128x128, B⟩, ⟨S128x128, C⟩] _ (ix2 (hi j) k) 2 (by simp)
    S128x128 C rfl rfl 256 rfl (ix2 j k)
    (fun d hd => match d, hd with | ⟨0, _⟩, hd => absurd rfl hd | ⟨1, _⟩, _ => rfl) rfl

/-- The same for three stacked biases. -/
theorem bias_lo (j : Fin 128) : val_main_v4 (F := Ideal) a b c (ix1 (lo j)) = a (ix1 j) := by
  unfold val_main_v4
  exact concatenate_apply_piece (0 : Fin 1) [⟨S128, a⟩, ⟨S128, b⟩, ⟨S128, c⟩] _ (ix1 (lo j)) 0 (by simp)
    S128 a rfl rfl 0 rfl (ix1 j)
    (fun d hd => match d, hd with | ⟨0, _⟩, hd => absurd rfl hd) (Nat.zero_add _)

theorem bias_mid (j : Fin 128) : val_main_v4 (F := Ideal) a b c (ix1 (mid j)) = b (ix1 j) := by
  unfold val_main_v4
  exact concatenate_apply_piece (0 : Fin 1) [⟨S128, a⟩, ⟨S128, b⟩, ⟨S128, c⟩] _ (ix1 (mid j)) 1 (by simp)
    S128 b rfl rfl 128 rfl (ix1 j)
    (fun d hd => match d, hd with | ⟨0, _⟩, hd => absurd rfl hd) rfl

theorem bias_hi (j : Fin 128) : val_main_v4 (F := Ideal) a b c (ix1 (hi j)) = c (ix1 j) := by
  unfold val_main_v4
  exact concatenate_apply_piece (0 : Fin 1) [⟨S128, a⟩, ⟨S128, b⟩, ⟨S128, c⟩] _ (ix1 (hi j)) 2 (by simp)
    S128 c rfl rfl 256 rfl (ix1 j)
    (fun d hd => match d, hd with | ⟨0, _⟩, hd => absurd rfl hd) rfl

/-- Rows `X` against the transposed stack plus the stacked biases, at node `n` and column `q` of 384: row `n` of `X` against row
    `q` of the stack, plus the stacked bias at `q`. -/
theorem proj_at (X : (⟨S200000x128, .f32⟩ : BufTy).Contents (Elt Ideal)) (n : Fin 200000) (q : Fin 384) :
    val_main_v14 (F := Ideal) X A a B b C c (ix2 n q)
      = (∑ k : Fin 128, X (ix2 n k) * val_main_v3 (F := Ideal) A B C (ix2 q k)) + val_main_v4 (F := Ideal) a b c (ix1 q) := by
  have e1 : idx_main_v12 (idx_main_v13 (ix2 n q)) = ix1 q :=
    funext fun d => Fin.ext (by match d with | ⟨0, _⟩ => rfl)
  rw [val_main_v14_apply, val_main_v11_apply, val_main_v13_apply, val_main_v12_apply, e1, Ideal.addf_def]
  congr 1
  refine Finset.sum_congr rfl fun k _ => ?_
  have e2 : lidx_main_v11 (ix2 n q) k = ix2 n k :=
    funext fun d => Fin.ext (by match d with | ⟨0, _⟩ => rfl | ⟨1, _⟩ => rfl)
  have e3 : idx_main_v10 (ridx_main_v11 (ix2 n q) k) = ix2 q k :=
    funext fun d => Fin.ext (by match d with | ⟨0, _⟩ => rfl | ⟨1, _⟩ => rfl)
  rw [val_main_v10_apply, e2, e3]

variable (x0 x1 x2 : (⟨S200000x128, .f32⟩ : BufTy).Contents (Elt Ideal))
  (x3 : (⟨S128x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal))
  (x7 : (⟨S128x128, .f32⟩ : BufTy).Contents (Elt Ideal)) (x8 : (⟨S128, .f32⟩ : BufTy).Contents (Elt Ideal))
  (x9 : (⟨S128x128, .f32⟩ : BufTy).Contents (Elt Ideal)) (x10 : (⟨S128, .f32⟩ : BufTy).Contents (Elt Ideal))
  (x11 : (⟨S128x128, .f32⟩ : BufTy).Contents (Elt Ideal)) (x12 : (⟨S128, .f32⟩ : BufTy).Contents (Elt Ideal))
  (x13 : (⟨S128x128, .f32⟩ : BufTy).Contents (Elt Ideal)) (x14 : (⟨S128, .f32⟩ : BufTy).Contents (Elt Ideal))

/-- The message-side product is the hidden-side construction applied to the combined message `X_m + X_cm`. -/
theorem msg_side : val_main_v9 (F := Ideal) x0 x1 x3 x4 x7 x8 x11 x12
    = val_main_v14 (F := Ideal) (val_main_v0 (F := Ideal) x0 x1) x3 x4 x7 x8 x11 x12 := rfl

/-- The three column ranges a product is cut into, at node `n` and feature `j`. -/
theorem cut15 (n : Fin 200000) (j : Fin 128) : idx_main_v15 (ix2 n j) = ix2 n (lo j) :=
  funext fun d => Fin.ext (by match d with | ⟨0, _⟩ => rfl | ⟨1, _⟩ => rfl)
theorem cut16 (n : Fin 200000) (j : Fin 128) : idx_main_v16 (ix2 n j) = ix2 n (mid j) :=
  funext fun d => Fin.ext (by match d with | ⟨0, _⟩ => rfl | ⟨1, _⟩ => rfl)
theorem cut17 (n : Fin 200000) (j : Fin 128) : idx_main_v17 (ix2 n j) = ix2 n (hi j) :=
  funext fun d => Fin.ext (by match d with | ⟨0, _⟩ => rfl | ⟨1, _⟩ => rfl)
theorem cut18 (n : Fin 200000) (j : Fin 128) : idx_main_v18 (ix2 n j) = ix2 n (lo j) :=
  funext fun d => Fin.ext (by match d with | ⟨0, _⟩ => rfl | ⟨1, _⟩ => rfl)
theorem cut19 (n : Fin 200000) (j : Fin 128) : idx_main_v19 (ix2 n j) = ix2 n (mid j) :=
  funext fun d => Fin.ext (by match d with | ⟨0, _⟩ => rfl | ⟨1, _⟩ => rfl)
theorem cut20 (n : Fin 200000) (j : Fin 128) : idx_main_v20 (ix2 n j) = ix2 n (hi j) :=
  funext fun d => Fin.ext (by match d with | ⟨0, _⟩ => rfl | ⟨1, _⟩ => rfl)

/-- The reset gate's pre-activation: the first column range of both products. -/
theorem reset_pre (n : Fin 200000) (j : Fin 128) :
    val_main_v21 (F := Ideal) x0 x1 x2 x3 x4 x5 x6 x7 x8 x9 x10 x11 x12 x13 x14 (ix2 n j)
      = gatePair (msgRow x0 x1 n) (rowOf x2 n) (wRow x3 j) (wRow x5 j) (x4 (ix1 j)) (x6 (ix1 j)) := by
  rw [val_main_v21_apply, val_main_v15_apply, val_main_v18_apply, cut15, cut18, msg_side, proj_at, proj_at]
  simp only [stack_lo, bias_lo, val_main_v0_apply, Ideal.addf_def]
  rfl

/-- The update gate's pre-activation: the second column range of both products. -/
theorem update_pre (n : Fin 200000) (j : Fin 128) :
    val_main_v28 (F := Ideal) x0 x1 x2 x3 x4 x5 x6 x7 x8 x9 x10 x11 x12 x13 x14 (ix2 n j)
      = gatePair (msgRow x0 x1 n) (rowOf x2 n) (wRow x7 j) (wRow x9 j) (x8 (ix1 j)) (x10 (ix1 j)) := by
  rw [val_main_v28_apply, val_main_v16_apply, val_main_v19_apply, cut16, cut19, msg_side, proj_at, proj_at]
  simp only [stack_mid, bias_mid, val_main_v0_apply, Ideal.addf_def]
  rfl

/-- The candidate's message part and hidden part: the third column range of each product. -/
theorem cand_msg (n : Fin 200000) (j : Fin 128) :
    val_main_v17 (F := Ideal) x0 x1 x3 x4 x7 x8 x11 x12 (ix2 n j) = dot (msgRow x0 x1 n) (wRow x11 j) + x12 (ix1 j) := by
  rw [val_main_v17_apply, cut17, msg_side, proj_at]
  simp only [stack_hi, bias_hi, val_main_v0_apply, Ideal.addf_def]
  rfl

theorem cand_hid (n : Fin 200000) (j : Fin 128) :
    val_main_v20 (F := Ideal) x2 x5 x6 x9 x10 x13 x14 (ix2 n j) = dot (rowOf x2 n) (wRow x13 j) + x14 (ix1 j) := by
  rw [val_main_v20_apply, cut20, proj_at]
  simp only [stack_hi, bias_hi]
  rfl

/-- The reference's new hidden entry at node `n`, feature `j`: the convex combination of the old entry and the candidate. -/
theorem entry_eq (n : Fin 200000) (j : Fin 128) :
    val_main_v42 (F := Ideal) x0 x1 x2 x3 x4 x5 x6 x7 x8 x9 x10 x11 x12 x13 x14 (ix2 n j)
      = cellBlend 1
          (gatePair (msgRow x0 x1 n) (rowOf x2 n) (wRow x3 j) (wRow x5 j) (x4 (ix1 j)) (x6 (ix1 j)))
          (gatePair (msgRow x0 x1 n) (rowOf x2 n) (wRow x7 j) (wRow x9 j) (x8 (ix1 j)) (x10 (ix1 j)))
          (dot (msgRow x0 x1 n) (wRow x11 j) + x12 (ix1 j))
          (dot (rowOf x2 n) (wRow x13 j) + x14 (ix1 j))
          (x2 (ix2 n j)) := by
  have h24 : ∀ i, val_main_v24 (F := Ideal) i = (1 : EReal) := fun i => by
    rw [val_main_v24_apply, val_main_cst_apply, Ideal.ofBits_def, ofBits_one]
  have h26 : ∀ i, val_main_v26 (F := Ideal) i = (1 : EReal) := fun i => by
    rw [val_main_v26_apply, val_main_cst_0_apply, Ideal.ofBits_def, ofBits_one]
  have h31 : ∀ i, val_main_v31 (F := Ideal) i = (1 : EReal) := fun i => by
    rw [val_main_v31_apply, val_main_cst_1_apply, Ideal.ofBits_def, ofBits_one]
  have h33 : ∀ i, val_main_v33 (F := Ideal) i = (1 : EReal) := fun i => by
    rw [val_main_v33_apply, val_main_cst_2_apply, Ideal.ofBits_def, ofBits_one]
  have h38 : ∀ i, val_main_v38 (F := Ideal) i = (1 : EReal) := fun i => by
    rw [val_main_v38_apply, val_main_cst_3_apply, Ideal.ofBits_def, ofBits_one]
  have hr : val_main_v27 (F := Ideal) x0 x1 x2 x3 x4 x5 x6 x7 x8 x9 x10 x11 x12 x13 x14 (ix2 n j)
      = Ideal.logistic (gatePair (msgRow x0 x1 n) (rowOf x2 n) (wRow x3 j) (wRow x5 j) (x4 (ix1 j)) (x6 (ix1 j))) := by
    rw [val_main_v27_apply, val_main_v25_apply, val_main_v23_apply, val_main_v22_apply, reset_pre, h24, h26]
    rfl
  have hu : val_main_v34 (F := Ideal) x0 x1 x2 x3 x4 x5 x6 x7 x8 x9 x10 x11 x12 x13 x14 (ix2 n j)
      = Ideal.logistic (gatePair (msgRow x0 x1 n) (rowOf x2 n) (wRow x7 j) (wRow x9 j) (x8 (ix1 j)) (x10 (ix1 j))) := by
    rw [val_main_v34_apply, val_main_v32_apply, val_main_v30_apply, val_main_v29_apply, update_pre, h31, h33]
    rfl
  rw [val_main_v42_apply, val_main_v40_apply, val_main_v39_apply, val_main_v41_apply, val_main_v37_apply,
    val_main_v36_apply, val_main_v35_apply, hu, hr, cand_msg, cand_hid, h38]
  rfl

end Cert.Gru.Ref

end
-- ==== Proof.GruJoin.lean ====
/-
  The reference's result is the specification `G` wherever the hidden state is real.

  At node `n` and feature `j` the reference forms `(1 - u) · h + u · t` over gate pre-activations that add each product to
  its own bias; `G` forms `h + u · (t - h)` over pre-activations that add the two biases first. The pre-activations agree
  by regrouping four summands; the two forms of the new entry agree because `h` is real.
-/
import proofs.«148004_j57363583205517_2_alg».proof.Proof.GruRef

noncomputable section
open Idealize.ShloMosaic Idealize.ShloMosaic.ValueIdx
open Cert.ReferenceIdeal Cert.ReferenceIdeal.Read

namespace Cert.Gru.Join

theorem ref_eq_G (x0 x1 x2 : (⟨S200000x128, .f32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal))
    (x9 : (⟨S128x128, .f32⟩ : BufTy).Contents (Elt Ideal)) (x10 : (⟨S128, .f32⟩ : BufTy).Contents (Elt Ideal))
    (x11 : (⟨S128x128, .f32⟩ : BufTy).Contents (Elt Ideal)) (x12 : (⟨S128, .f32⟩ : BufTy).Contents (Elt Ideal))
    (x13 : (⟨S128x128, .f32⟩ : BufTy).Contents (Elt Ideal)) (x14 : (⟨S128, .f32⟩ : BufTy).Contents (Elt Ideal))
    (hfin : ∀ i, ∃ r : ℝ, x2 i = (r : EReal)) :
    val_main_v42 (F := Ideal) x0 x1 x2 x3 x4 x5 x6 x7 x8 x9 x10 x11 x12 x13 x14 = G x0 x1 x2 x3 x4 x5 x6 x7 x8 x9 x10 x11 x12 x13 x14 := by
  funext i
  obtain ⟨n, j, rfl⟩ : ∃ (n : Fin 200000) (j : Fin 128), i = ix2 n j := ⟨i 0, i 1, eq_ix2 i⟩
  obtain ⟨r, hr⟩ := hfin (ix2 n j)
  show _ = entry x0 x1 x2 x3 x4 x5 x6 x7 x8 x9 x10 x11 x12 x13 x14 n j
  unfold entry
  rw [Ref.entry_eq, hr, cellStep_eq_cellBlend, gateJoint_eq_gatePair, gateJoint_eq_gatePair]

end Cert.Gru.Join

end
-- ==== Proof.GruFinite.lean ====
/-
  From the precondition to the one fact the proof uses: every entry of the hidden state is a real number.

  The precondition is the conjunction, over the fifteen arguments, of "every entry's absolute value is below `+∞`". The
  hidden state's conjunct is the third. An extended real whose absolute value `max x (-x)` is below `+∞` is neither
  infinity, so it is a real.
-/
import proofs.«148004_j57363583205517_2_alg».proof.Pre_finite_inputs
import Idealize.ShloMosaic.PureOps.Ideal
import Idealize.ShloMosaic.Lib.ReduceAll
import Idealize.ShloMosaic.Lib.Affine
import Idealize.ShloMosaic.Lib.ValueIdx

noncomputable section
open Idealize.ShloMosaic
open Cert.Pre_finite_inputs

namespace Cert.Gru.Finite

/-- The shape with no axes has one index. -/
instance : Subsingleton S_.Idx := ⟨fun _ _ => funext fun d => d.elim0⟩

/-- An extended real whose absolute value compares below the bit pattern of `+∞` is a real. -/
theorem real_of_abs_lt (x : EReal)
    (h : Ideal.cmp .olt (max x (-x)) (Ideal.ofBits .f32 0x7F800000#32) = 1#1) : ∃ r : ℝ, x = (r : EReal) := by
  induction x using EReal.rec with
  | bot => simp [Ideal.cmp, Ideal.ofBits, Ideal.ieee] at h
  | coe r => exact ⟨r, rfl⟩
  | top => simp [Ideal.cmp, Ideal.ofBits, Ideal.ieee] at h

variable [Cert.Pre_finite_inputs.Facts]

/-- Under the precondition every entry of the third argument, the hidden state, is a real. -/
theorem hidden_real (x0 x1 x2 : FVec Ideal S200000x128 .f32)
    (x3 : FVec Ideal S128x128 .f32) (x4 : FVec Ideal S128 .f32) (x5 : FVec Ideal S128x128 .f32) (x6 : FVec Ideal S128 .f32)
    (x7 : FVec Ideal S128x128 .f32) (x8 : FVec Ideal S128 .f32) (x9 : FVec Ideal S128x128 .f32) (x10 : FVec Ideal S128 .f32)
    (x11 : FVec Ideal S128x128 .f32) (x12 : FVec Ideal S128 .f32) (x13 : FVec Ideal S128x128 .f32) (x14 : FVec Ideal S128 .f32)
    (h : fn (F := Ideal) x0 x1 x2 x3 x4 x5 x6 x7 x8 x9 x10 x11 x12 x13 x14 = fun _ => 1#1) (i : S200000x128.Idx) :
    ∃ r : ℝ, x2 i = (r : EReal) := by
  have h0 := congrFun h ValueIdx.ix0
  dsimp only [fn, fn_part1, fn_part2, fn_part3, fn_part4] at h0
  simp only [andi, IntOp.andi_eq_one] at h0
  have h12 := h0.1.1.1.1.1.1.1.1.1.1.1.1.2
  exact real_of_abs_lt (x2 i) (Host.reduce_andi_all _ _ _ _ _ h12 i)

end Cert.Gru.Finite

end
-- ==== Proof.lean ====
/-
  A gated recurrent update of a hidden state, `X_h ↦ (1 - u) · X_h + u · tanh (hm + r · hh)`, over 200000 nodes and 128
  features: `r` and `u` are logistic functions of sums of two linear layers (one of the combined message `X_m + X_cm`, one
  of the hidden state), `hm` and `hh` are two more linear layers. The kernel computes it fifty blocks of 4000 nodes at a
  time, with the reset and update layers fused into one 256-wide product against a weight the host assembles from four
  transposed weights, and forms the new entry as `X_h + u · (candidate - X_h)`; the reference stacks the weights three
  at a time, multiplies once per side, cuts the products into three column ranges and forms the convex combination.

  On the extended reals the two agree as follows. A change of float format is the identity, a matrix product into a zero
  accumulator is the plain sum of products, and the logistic function is `1 / (1 + e^(-x))` by definition on both sides.
  The gate pre-activations differ only in how four summands are grouped (a sum over 256 positions split in two halves,
  two biases added before or after the products), which holds with infinite entries too. The two forms of the new entry
  agree exactly where the old entry is a real number — the logistic function and `tanh` are real-valued everywhere — and
  differ at an infinite one, so this is where the precondition (every input entry finite) is used, and the only place.

  The three frames are the generated ones (the reference's is its generated run with the result dropped); the kernel's
  idealization rewrote nothing, so `preserves` is trivial.
-/
import proofs.«148004_j57363583205517_2_alg».proof.Defs
import proofs.«148004_j57363583205517_2_alg».proof.Proof.Gen.Kernel
import proofs.«148004_j57363583205517_2_alg».proof.Proof.Gen.Kernel.Skeleton
import proofs.«148004_j57363583205517_2_alg».proof.Proof.Gen.Kernel.Launch
import proofs.«148004_j57363583205517_2_alg».proof.Proof.Gen.Kernel.Points
import proofs.«148004_j57363583205517_2_alg».proof.Proof.Gen.Kernel.Frame
import proofs.«148004_j57363583205517_2_alg».proof.Proof.Gen.KernelIdeal
import proofs.«148004_j57363583205517_2_alg».proof.Proof.Gen.KernelIdeal.Skeleton
import proofs.«148004_j57363583205517_2_alg».proof.Proof.Gen.KernelIdeal.Launch
import proofs.«148004_j57363583205517_2_alg».proof.Proof.Gen.KernelIdeal.Points
import proofs.«148004_j57363583205517_2_alg».proof.Proof.Gen.KernelIdeal.Frame
import proofs.«148004_j57363583205517_2_alg».proof.Proof.Gen.ReferenceIdeal
import proofs.«148004_j57363583205517_2_alg».proof.Proof.Gen.Pre_finite_inputs
import proofs.«148004_j57363583205517_2_alg».proof.Proof.Gen.KernelIdeal.Value
import proofs.«148004_j57363583205517_2_alg».proof.Proof.Gen.ReferenceIdeal.Run
import proofs.«148004_j57363583205517_2_alg».proof.Proof.Gen.ReferenceIdeal.Read
import proofs.«148004_j57363583205517_2_alg».proof.Proof.GruBlock
import proofs.«148004_j57363583205517_2_alg».proof.Proof.GruJoin
import proofs.«148004_j57363583205517_2_alg».proof.Proof.GruFinite
import Idealize.ShloMosaic.Adequacy
import Idealize.ShloMosaic.Init

noncomputable section

namespace Cert.Proof

open Idealize.ShloMosaic Idealize.SL.Sem

/-- The kernel as printed, and read at the extended reals: every execution terminates without a fault and leaves the
    arguments as they were. -/
theorem frame_kernel : Cert.frame_Kernel := fun m ρ _ => Cert.Kernel.Gen.frame m ρ
theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the specification `G` of the kernel's arguments in their result: the kernel by its blocks, the
    reference by its operations read at an index and the two laws, the second under the hidden state's finiteness. -/
theorem algebraic : Cert.algebraic_KernelIdeal_ReferenceIdeal := by
  intro m ρ m' ρ' hpre hagree
  refine ⟨fun c => Cert.Gru.Block.Gm m c, Cert.Gru.Block.run m ρ, ?_⟩
  refine (θ_run Cert.ReferenceIdeal.defs _ _).mono (fun _ h c => ⟨?_, (h c).2⟩)
    (Cert.ReferenceIdeal.Value.run (F := Ideal) m' ρ')
  obtain ⟨e0, e1, e2, e3, e4, e5, e6, e7, e8, e9, e10, e11, e12, e13, e14⟩ := hagree c
  rw [(h c).1, Cert.ReferenceIdeal.Read.val_main_v42_eq, e0, e1, e2, e3, e4, e5, e6, e7, e8, e9, e10, e11, e12, e13, e14]
  exact Cert.Gru.Join.ref_eq_G _ _ _ _ _ _ _ _ _ _ _ _ _ _ _
    (Cert.Gru.Finite.hidden_real _ _ _ _ _ _ _ _ _ _ _ _ _ _ _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
